-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x512 : Shape := ⟨2, ![2048, 512]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S8x2048x2048 .f32) (main_arg1 : FVec F S2048x512 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S8x2048x2048 : Shape := ⟨3, ![8, 2048, 2048]⟩
abbrev S2048x512 : Shape := ⟨2, ![2048, 512]⟩
abbrev S16384x2048 : Shape := ⟨2, ![16384, 2048]⟩
abbrev S16384x512 : Shape := ⟨2, ![16384, 512]⟩
abbrev S1024x2048 : Shape := ⟨2, ![1024, 2048]⟩
abbrev S1024x512 : Shape := ⟨2, ![1024, 512]⟩
abbrev S8x2048x512 : Shape := ⟨3, ![8, 2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S2048x512, .f32⟩
  | .hbm, ⟨2, _⟩ => ⟨S16384x2048, .f32⟩
  | .hbm, ⟨3, _⟩ => ⟨S16384x512, .f32⟩
  | .hbm, ⟨4, _⟩ => ⟨S8x2048x512, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x2048x2048_S16384x2048 : S8x2048x2048.ShapeCasts S16384x2048
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S1024x512_0_0 : ∀ a, (![0, 0] : Fin 2 → Nat) a + S1024x512.size a ≤ S2048x512.size a
  h_S1024x512 : 0 < S1024x512.numel
  inb_S2048x512_S1024x512_1024_0 : ∀ a, (![1024, 0] : Fin 2 → Nat) a + S1024x512.size a ≤ S2048x512.size a
  shapeCasts_S16384x512_S8x2048x512 : S16384x512.ShapeCasts S8x2048x512
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .f32 = 32 ∨ (Rect.block (s := S2048x512) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .f32 = 32 ∨ (Rect.block (s := S16384x512) S2048x512.size (cc0_transform_3 i) (hinb0_3 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x512 : Shape := ⟨2, ![2048, 512]⟩
abbrev S16384x2048 : Shape := ⟨2, ![16384, 2048]⟩
abbrev S16384x512 : Shape := ⟨2, ![16384, 512]⟩
abbrev S512x512 : Shape := ⟨2, ![512, 512]⟩
abbrev S8x2048x512 : Shape := ⟨3, ![8, 2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S2048x512, .f32⟩
  | .hbm, ⟨2, _⟩ => ⟨S16384x2048, .f32⟩
  | .hbm, ⟨3, _⟩ => ⟨S16384x512, .f32⟩
  | .hbm, ⟨4, _⟩ => ⟨S8x2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8x2048x2048_S16384x2048 : S8x2048x2048.ShapeCasts S16384x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S16384x512_S8x2048x512 : S16384x512.ShapeCasts S8x2048x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x2048.size a
  hwx0_0 : ∀ i : grid0.Coords, EltTy.bits .f32 = 32 ∨ (Rect.block (s := S16384x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x512.size a
  hwx0_1 : ∀ i : grid0.Coords, EltTy.bits .f32 = 32 ∨ (Rect.block (s := S2048x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.KernelBody.lean ====
/-
  The body of the one kernel of this program, and the pipeline's proof data.

  The kernel runs on a grid of 8 points. At point t it is handed two consecutive blocks of 1024 rows of the flattened
  adjacency matrix A : [16384, 2048] — rows 2048·t … 2048·t + 1023 through its first window and rows 2048·t + 1024 …
  2048·t + 2047 through its second: two windows on ONE array —, the whole embedding matrix W : [2048, 512] through its
  third, and an output block of 2048 rows of the product through its fourth. It multiplies each block of rows by W
  and stores the first product into the upper half of the output block and the second into the lower half. The two
  stores tile the output block, so what the block holds afterwards is a function of the three input blocks alone
  (`out3`): on its upper 1024 rows the first product, on its lower 1024 rows the second.

  Because two windows read one array, the array's buffer is held by halves: each of the two windows owns a half
  share of it, which is enough to read it, and the two halves are put together again when the region ends.
-/
import proofs.«169213_g2000205745379852_pallasbulk_1175_13_alg».proof.Proof.Gen.Kernel.Launch
import proofs.«169213_g2000205745379852_pallasbulk_1175_13_alg».proof.Proof.Gen.Kernel.Skeleton
import proofs.«169213_g2000205745379852_pallasbulk_1175_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched
    the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A whole block of rows of A, the whole of W, and the two halves of the output block. -/
abbrev rA : Rect S1024x2048 := Rect.unit (s := S1024x2048) ![0, 0] S1024x2048.size inb_S1024x2048_S1024x2048_0_0
abbrev rW : Rect S2048x512 := Rect.unit (s := S2048x512) ![0, 0] S2048x512.size inb_S2048x512_S2048x512_0_0
abbrev rTop : Rect S2048x512 := Rect.unit (s := S2048x512) ![0, 0] S1024x512.size inb_S2048x512_S1024x512_0_0
abbrev rBot : Rect S2048x512 := Rect.unit (s := S2048x512) ![1024, 0] S1024x512.size inb_S2048x512_S1024x512_1024_0

/-! ## What the body leaves in the output window's buffer -/

/-- The output block after the body, from the three input blocks: the two stores as pieces, the later one first —
    the second block of rows times W on the lower half, the first block of rows times W on the upper half. -/
def out3 (x0 x1 : Vec F S1024x2048 .f32) (x2 : Vec F S2048x512 .f32) : Vec F S2048x512 .f32 :=
  View.canon [⟨rBot, k0_pay3 (View.ld x2 rW) (View.ld x1 rA)⟩, ⟨rTop, k0_pay2 (View.ld x2 rW) (View.ld x0 rA)⟩]

/-- The two halves tile the block, so they cover it. -/
theorem cover3 (p0 p1 : Vec F S1024x512 .f32) (y : S2048x512.Idx) :
    ∃ pc ∈ ([⟨rBot, p1⟩, ⟨rTop, p0⟩] : List (View.Piece (Elt F) S2048x512 .f32)), y ∈ pc.1.set :=
  View.cover_of_tiledL [⟨rBot, p1⟩, ⟨rTop, p0⟩] S1024x512.size (by sl_kernel_rfl) y

/-! ## The body's triple -/

set_option maxHeartbeats 4000000 in
/-- On whole staging buffers, the three inputs' at contents `x0`, `x1`, `x2` and the output's at anything, the body runs
    to the continuation holding the inputs' as they were and the output's at `out3 x0 x1 x2`. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S2048x512 .f32) (harg3 : arg3.IsWhole) (arg4 : Memref sig .tc .vmem S2048x512 .f32) (harg4 : arg4.IsWhole)
    (x0 x1 : Vec F S1024x2048 .f32) (x2 : Vec F S2048x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

/-! ## The pipeline's proof data -/

/-- The proof data on core `c`: the arrays as the region finds them; after the body at point `t` each input's buffer at
    its block and the output's at `out3` of the input blocks; the invariant the scoped rest and the generator register,
    untouched; nothing owed; of the array the first two windows share, a half share each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out3 (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_kernel` applies; the invariant and the core's
    `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hand

end
-- ==== Proof.KernelRun.lean ====
/-
  The run of the whole program: a flattening of the first argument, the one kernel region, and the reshape of the
  region's result into the program's result.

  Between these three segments the core holds every buffer that outlives a region at known contents: at launch the
  memory's; after the flattening, the same with the flattened matrix A in its buffer; after the region, the same with
  the product's buffer at what the eight write-backs left; after the last reshape, that with the result in its buffer.

  At the region's entry the buffer of A is cut into two half shares, one for each of the two windows that read it
  (reading needs only a share), and at the exit — both windows having left it as they found it — the halves are joined
  into the whole again. The embedding matrix is held whole by its one window and likewise comes back unchanged. So
  both arguments end as launched, and the result is the reshape of what the region left in the product's buffer.
-/
import proofs.«169213_g2000205745379852_pallasbulk_1175_13_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the flattening (the region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the product's buffer at what the write-backs leave, every other buffer as entered. -/
def W2 (c : Dev nD) : Valuation τ sig (Elt F) :=
  Function.update (W1 m ρ c) (Proc.devRef .tc main_v1) ((dat (V1 m ρ) c).arrAt 3 cfg0.N)
theorem W2_v1 (c : Dev nD) : W2 m ρ c (Proc.devRef .tc main_v1) = (dat (V1 m ρ) c).arrAt 3 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- After the last reshape. -/
abbrev W3 : Dev nD → Valuation τ sig (Elt F) := fun c => StableHlo.after hostOps1 (W2 m ρ c)

/-- The flattening writes only the buffer of A. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (fun op hop => by
    simp only [hostOps0, List.mem_cons, List.mem_nil_iff, or_false] at hop
    subst hop
    simp only [StableHlo.reshape_writes, Finset.mem_singleton]
    exact StableHlo.devRef_ne_of_ne hb)
/-- The last reshape writes only the result's buffer. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (fun op hop => by
    simp only [hostOps1, List.mem_cons, List.mem_nil_iff, or_false] at hop
    subst hop
    simp only [StableHlo.reshape_writes, Finset.mem_singleton]
    exact StableHlo.devRef_ne_of_ne hb)

/-- Both arguments end as launched. -/
theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans (W1_of_ne m ρ c main_arg0 (by decide)))
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_of_ne m ρ c main_arg1 (by decide)))

/-! ## The region's arrays: one buffer held by halves -/

section Arrays
variable (V : (c : Dev nD) → (b : Ref sig .tc) → Buf (Elt F) ((c : Thread nD τ).loc b))

/-- The buffers behind the four windows are three. -/
theorem arr_image : Finset.univ.image (Pipeline.arrRef spec0) = {main_v0, main_arg1, main_v1} := by decide

/-- The pipeline's arrays, window by window: A's buffer twice at a half share, W's and the product's whole. -/
theorem arrays_eq (c : Dev nD) (G : (w : Fin cfg0.W) → Buf (Elt F) ((cfg0.win w).arr.view.loc (c : Thread nD τ))) :
    ((dat V c).arrays G : sProp 𝕄)
      = iprop((((c : Thread nD τ).loc main_v0) ↦{fullShare.left} G 0) ∗ (((c : Thread nD τ).loc main_v0) ↦{fullShare.right} G 1)
          ∗ (((c : Thread nD τ).loc main_arg1) ↦{fullShare} G 2) ∗ (((c : Thread nD τ).loc main_v1) ↦{fullShare} G 3)) := by
  unfold Dat.arrays
  rw [bigSep_W0, (arr_whole0 0).set_eq_univ, (arr_whole0 2).set_eq_univ, (arr_whole0 3).set_eq_univ]
  rfl

/-- The three buffers behind the windows, each whole, at contents `V0`. -/
theorem arrBufs_eq (c : Dev nD) (V0 : (b : Ref sig .tc) → Buf (Elt F) ((c : Thread nD τ).loc b)) :
    (Pipeline.arrBufs spec0 c V0 : sProp 𝕄)
      = iprop((((c : Thread nD τ).loc main_v0) ↦{fullShare} V0 main_v0) ∗ (((c : Thread nD τ).loc main_arg1) ↦{fullShare} V0 main_arg1)
          ∗ (((c : Thread nD τ).loc main_v1) ↦{fullShare} V0 main_v1)) := by
  unfold Pipeline.arrBufs
  rw [arr_image, bigSep_insert (by decide), bigSep_insert (by decide), bigSep_singleton]
  rfl

/-- ENTRY: the buffers that outlive a region, at contents `V`, are the pipeline's arrays at their entry contents — the
    buffer of A cut into its two half shares, one per window — and the buffers no window stages. -/
theorem entry_split (c : Dev nD) :
    (unscopedBufs c (V c) : sProp 𝕄) ⊢ iprop((dat V c).arrays ((dat V c).arrAt · 0) ∗ Pipeline.unscopedRest spec0 c (V c)) := by
  rw [Pipeline.unscopedBufs_split₀ cfgs 0 winFacts₀0.arr_unscoped c (V c), arrays_eq, arrBufs_eq]
  iintro ⟨⟨H0, H2, H3⟩, Hrest⟩
  ihave H01 := (pointsTo_share (PosShare.mem_left_op_right fullShare)).1 $$ H0
  icases H01 with ⟨Hl, Hr⟩
  isplitr [Hrest]
  · isplitl [Hl]; · iexact Hl
    isplitl [Hr]; · iexact Hr
    isplitl [H2]; · iexact H2
    iexact H3
  iexact Hrest

/-- EXIT: the arrays at their final contents — the inputs as entered, the product's at what the write-backs left — and
    the buffers no window stages make the buffers that outlive the region at contents `V'`, which is `V` but at the
    product's buffer: the two half shares of A's buffer, both at the entry contents, are joined. -/
theorem exit_join (c : Dev nD) (V' : (b : Ref sig .tc) → Buf (Elt F) ((c : Thread nD τ).loc b))
    (hv1 : V' main_v1 = (dat V c).arrAt 3 cfg0.N) (hrest : ∀ b, b ≠ main_v1 → V' b = V c b) :
    iprop((dat V c).arrays ((dat V c).arrAt · cfg0.N) ∗ Pipeline.unscopedRest spec0 c (V c)) ⊢ (unscopedBufs c V' : sProp 𝕄) := by
  have hR : (Pipeline.unscopedRest spec0 c V' : sProp 𝕄) = Pipeline.unscopedRest spec0 c (V c) := by
    unfold Pipeline.unscopedRest
    exact bigSep_congr fun b hb => by
      rw [hrest b (fun e => (Finset.mem_sdiff.mp hb).2 (Finset.mem_image.mpr ⟨3, Finset.mem_univ _, e ▸ rfl⟩))]
  rw [Pipeline.unscopedBufs_split₀ cfgs 0 winFacts₀0.arr_unscoped c V', arrays_eq, hR, arrBufs_eq]
  rw [(dat V c).arrAt_in 0 rfl, (dat V c).arrAt_in 1 rfl, (dat V c).arrAt_in 2 rfl, hrest main_v0 (by decide), hrest main_arg1 (by decide), hv1]
  iintro ⟨⟨Hl, Hr, H2, H3⟩, Hrest⟩
  isplitr [Hrest]
  · isplitl [Hl Hr]
    · iapply (pointsTo_share (PosShare.mem_left_op_right fullShare)).2
      isplitl [Hl]; · iexact Hl
      iexact Hr
    isplitl [H2]; · iexact H2
    iexact H3
  iexact Hrest

end Arrays

/-! ## The proof data family and the thread state -/

/-- No pipeline has a prefetched table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations as a segment, over every buffer that outlives a region. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every buffer that outlives a region at the last boundary's contents. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every buffer at the contents after the flattening, left with the
    product's buffer at what the write-backs left. The arrays are sorted out of the buffers at entry (`entry_split`) and put
    back at exit (`exit_join`); the generator register goes into the invariant and comes back; nothing is owed; the
    kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (F := F) (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (F := F) (V1 m ρ) c (V2 m ρ c) (W2_v1 m ρ c) (fun b hb => W2_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- At the compiled mesh, from any memory with zero counters, every weakly fair execution of the program on the
    TensorCores terminates, nothing faulting, and every final state has the result's buffer at the reshape of what the
    region left in the product's buffer (`W3` at the result) and both argument arrays as launched. -/
theorem run_main : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c)⟩)

/-- The frame: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KernelIdealBody.lean ====
/-
  The body of the one kernel of this program, and the pipeline's proof data.

  The kernel runs on a grid of 8 points. At point t it is handed two consecutive blocks of 1024 rows of the flattened
  adjacency matrix A : [16384, 2048] — rows 2048·t … 2048·t + 1023 through its first window and rows 2048·t + 1024 …
  2048·t + 2047 through its second: two windows on ONE array —, the whole embedding matrix W : [2048, 512] through its
  third, and an output block of 2048 rows of the product through its fourth. It multiplies each block of rows by W
  and stores the first product into the upper half of the output block and the second into the lower half. The two
  stores tile the output block, so what the block holds afterwards is a function of the three input blocks alone
  (`out3`): on its upper 1024 rows the first product, on its lower 1024 rows the second.

  Because two windows read one array, the array's buffer is held by halves: each of the two windows owns a half
  share of it, which is enough to read it, and the two halves are put together again when the region ends.
-/
import proofs.«169213_g2000205745379852_pallasbulk_1175_13_alg».proof.Proof.Gen.KernelIdeal.Launch
import proofs.«169213_g2000205745379852_pallasbulk_1175_13_alg».proof.Proof.Gen.KernelIdeal.Skeleton
import proofs.«169213_g2000205745379852_pallasbulk_1175_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched
    the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A whole block of rows of A, the whole of W, and the two halves of the output block. -/
abbrev rA : Rect S1024x2048 := Rect.unit (s := S1024x2048) ![0, 0] S1024x2048.size inb_S1024x2048_S1024x2048_0_0
abbrev rW : Rect S2048x512 := Rect.unit (s := S2048x512) ![0, 0] S2048x512.size inb_S2048x512_S2048x512_0_0
abbrev rTop : Rect S2048x512 := Rect.unit (s := S2048x512) ![0, 0] S1024x512.size inb_S2048x512_S1024x512_0_0
abbrev rBot : Rect S2048x512 := Rect.unit (s := S2048x512) ![1024, 0] S1024x512.size inb_S2048x512_S1024x512_1024_0

/-! ## What the body leaves in the output window's buffer -/

/-- The output block after the body, from the three input blocks: the two stores as pieces, the later one first —
    the second block of rows times W on the lower half, the first block of rows times W on the upper half. -/
def out3 (x0 x1 : Vec F S1024x2048 .f32) (x2 : Vec F S2048x512 .f32) : Vec F S2048x512 .f32 :=
  View.canon [⟨rBot, k0_pay3 (View.ld x2 rW) (View.ld x1 rA)⟩, ⟨rTop, k0_pay2 (View.ld x2 rW) (View.ld x0 rA)⟩]

/-- The two halves tile the block, so they cover it. -/
theorem cover3 (p0 p1 : Vec F S1024x512 .f32) (y : S2048x512.Idx) :
    ∃ pc ∈ ([⟨rBot, p1⟩, ⟨rTop, p0⟩] : List (View.Piece (Elt F) S2048x512 .f32)), y ∈ pc.1.set :=
  View.cover_of_tiledL [⟨rBot, p1⟩, ⟨rTop, p0⟩] S1024x512.size (by sl_kernel_rfl) y

/-! ## The body's triple -/

set_option maxHeartbeats 4000000 in
/-- On whole staging buffers, the three inputs' at contents `x0`, `x1`, `x2` and the output's at anything, the body runs
    to the continuation holding the inputs' as they were and the output's at `out3 x0 x1 x2`. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S2048x512 .f32) (harg3 : arg3.IsWhole) (arg4 : Memref sig .tc .vmem S2048x512 .f32) (harg4 : arg4.IsWhole)
    (x0 x1 : Vec F S1024x2048 .f32) (x2 : Vec F S2048x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

/-! ## The pipeline's proof data -/

/-- The proof data on core `c`: the arrays as the region finds them; after the body at point `t` each input's buffer at
    its block and the output's at `out3` of the input blocks; the invariant the scoped rest and the generator register,
    untouched; nothing owed; of the array the first two windows share, a half share each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out3 (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_kernel` applies; the invariant and the core's
    `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.KernelIdealRun.lean ====
/-
  The run of the whole program: a flattening of the first argument, the one kernel region, and the reshape of the
  region's result into the program's result.

  Between these three segments the core holds every buffer that outlives a region at known contents: at launch the
  memory's; after the flattening, the same with the flattened matrix A in its buffer; after the region, the same with
  the product's buffer at what the eight write-backs left; after the last reshape, that with the result in its buffer.

  At the region's entry the buffer of A is cut into two half shares, one for each of the two windows that read it
  (reading needs only a share), and at the exit — both windows having left it as they found it — the halves are joined
  into the whole again. The embedding matrix is held whole by its one window and likewise comes back unchanged. So
  both arguments end as launched, and the result is the reshape of what the region left in the product's buffer.
-/
import proofs.«169213_g2000205745379852_pallasbulk_1175_13_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the flattening (the region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the product's buffer at what the write-backs leave, every other buffer as entered. -/
def W2 (c : Dev nD) : Valuation τ sig (Elt F) :=
  Function.update (W1 m ρ c) (Proc.devRef .tc main_v1) ((dat (V1 m ρ) c).arrAt 3 cfg0.N)
theorem W2_v1 (c : Dev nD) : W2 m ρ c (Proc.devRef .tc main_v1) = (dat (V1 m ρ) c).arrAt 3 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- After the last reshape. -/
abbrev W3 : Dev nD → Valuation τ sig (Elt F) := fun c => StableHlo.after hostOps1 (W2 m ρ c)

/-- The flattening writes only the buffer of A. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (fun op hop => by
    simp only [hostOps0, List.mem_cons, List.mem_nil_iff, or_false] at hop
    subst hop
    simp only [StableHlo.reshape_writes, Finset.mem_singleton]
    exact StableHlo.devRef_ne_of_ne hb)
/-- The last reshape writes only the result's buffer. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (fun op hop => by
    simp only [hostOps1, List.mem_cons, List.mem_nil_iff, or_false] at hop
    subst hop
    simp only [StableHlo.reshape_writes, Finset.mem_singleton]
    exact StableHlo.devRef_ne_of_ne hb)

/-- Both arguments end as launched. -/
theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans (W1_of_ne m ρ c main_arg0 (by decide)))
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_of_ne m ρ c main_arg1 (by decide)))

/-! ## The region's arrays: one buffer held by halves -/

section Arrays
variable (V : (c : Dev nD) → (b : Ref sig .tc) → Buf (Elt F) ((c : Thread nD τ).loc b))

/-- The buffers behind the four windows are three. -/
theorem arr_image : Finset.univ.image (Pipeline.arrRef spec0) = {main_v0, main_arg1, main_v1} := by decide

/-- The pipeline's arrays, window by window: A's buffer twice at a half share, W's and the product's whole. -/
theorem arrays_eq (c : Dev nD) (G : (w : Fin cfg0.W) → Buf (Elt F) ((cfg0.win w).arr.view.loc (c : Thread nD τ))) :
    ((dat V c).arrays G : sProp 𝕄)
      = iprop((((c : Thread nD τ).loc main_v0) ↦{fullShare.left} G 0) ∗ (((c : Thread nD τ).loc main_v0) ↦{fullShare.right} G 1)
          ∗ (((c : Thread nD τ).loc main_arg1) ↦{fullShare} G 2) ∗ (((c : Thread nD τ).loc main_v1) ↦{fullShare} G 3)) := by
  unfold Dat.arrays
  rw [bigSep_W0, (arr_whole0 0).set_eq_univ, (arr_whole0 2).set_eq_univ, (arr_whole0 3).set_eq_univ]
  rfl

/-- The three buffers behind the windows, each whole, at contents `V0`. -/
theorem arrBufs_eq (c : Dev nD) (V0 : (b : Ref sig .tc) → Buf (Elt F) ((c : Thread nD τ).loc b)) :
    (Pipeline.arrBufs spec0 c V0 : sProp 𝕄)
      = iprop((((c : Thread nD τ).loc main_v0) ↦{fullShare} V0 main_v0) ∗ (((c : Thread nD τ).loc main_arg1) ↦{fullShare} V0 main_arg1)
          ∗ (((c : Thread nD τ).loc main_v1) ↦{fullShare} V0 main_v1)) := by
  unfold Pipeline.arrBufs
  rw [arr_image, bigSep_insert (by decide), bigSep_insert (by decide), bigSep_singleton]
  rfl

/-- ENTRY: the buffers that outlive a region, at contents `V`, are the pipeline's arrays at their entry contents — the
    buffer of A cut into its two half shares, one per window — and the buffers no window stages. -/
theorem entry_split (c : Dev nD) :
    (unscopedBufs c (V c) : sProp 𝕄) ⊢ iprop((dat V c).arrays ((dat V c).arrAt · 0) ∗ Pipeline.unscopedRest spec0 c (V c)) := by
  rw [Pipeline.unscopedBufs_split₀ cfgs 0 winFacts₀0.arr_unscoped c (V c), arrays_eq, arrBufs_eq]
  iintro ⟨⟨H0, H2, H3⟩, Hrest⟩
  ihave H01 := (pointsTo_share (PosShare.mem_left_op_right fullShare)).1 $$ H0
  icases H01 with ⟨Hl, Hr⟩
  isplitr [Hrest]
  · isplitl [Hl]; · iexact Hl
    isplitl [Hr]; · iexact Hr
    isplitl [H2]; · iexact H2
    iexact H3
  iexact Hrest

/-- EXIT: the arrays at their final contents — the inputs as entered, the product's at what the write-backs left — and
    the buffers no window stages make the buffers that outlive the region at contents `V'`, which is `V` but at the
    product's buffer: the two half shares of A's buffer, both at the entry contents, are joined. -/
theorem exit_join (c : Dev nD) (V' : (b : Ref sig .tc) → Buf (Elt F) ((c : Thread nD τ).loc b))
    (hv1 : V' main_v1 = (dat V c).arrAt 3 cfg0.N) (hrest : ∀ b, b ≠ main_v1 → V' b = V c b) :
    iprop((dat V c).arrays ((dat V c).arrAt · cfg0.N) ∗ Pipeline.unscopedRest spec0 c (V c)) ⊢ (unscopedBufs c V' : sProp 𝕄) := by
  have hR : (Pipeline.unscopedRest spec0 c V' : sProp 𝕄) = Pipeline.unscopedRest spec0 c (V c) := by
    unfold Pipeline.unscopedRest
    exact bigSep_congr fun b hb => by
      rw [hrest b (fun e => (Finset.mem_sdiff.mp hb).2 (Finset.mem_image.mpr ⟨3, Finset.mem_univ _, e ▸ rfl⟩))]
  rw [Pipeline.unscopedBufs_split₀ cfgs 0 winFacts₀0.arr_unscoped c V', arrays_eq, hR, arrBufs_eq]
  rw [(dat V c).arrAt_in 0 rfl, (dat V c).arrAt_in 1 rfl, (dat V c).arrAt_in 2 rfl, hrest main_v0 (by decide), hrest main_arg1 (by decide), hv1]
  iintro ⟨⟨Hl, Hr, H2, H3⟩, Hrest⟩
  isplitr [Hrest]
  · isplitl [Hl Hr]
    · iapply (pointsTo_share (PosShare.mem_left_op_right fullShare)).2
      isplitl [Hl]; · iexact Hl
      iexact Hr
    isplitl [H2]; · iexact H2
    iexact H3
  iexact Hrest

end Arrays

/-! ## The proof data family and the thread state -/

/-- No pipeline has a prefetched table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations as a segment, over every buffer that outlives a region. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every buffer that outlives a region at the last boundary's contents. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every buffer at the contents after the flattening, left with the
    product's buffer at what the write-backs left. The arrays are sorted out of the buffers at entry (`entry_split`) and put
    back at exit (`exit_join`); the generator register goes into the invariant and comes back; nothing is owed; the
    kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (F := F) (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (F := F) (V1 m ρ) c (V2 m ρ c) (W2_v1 m ρ c) (fun b hb => W2_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- At the compiled mesh, from any memory with zero counters, every weakly fair execution of the program on the
    TensorCores terminates, nothing faulting, and every final state has the result's buffer at the reshape of what the
    region left in the product's buffer (`W3` at the result) and both argument arrays as launched. -/
theorem run_main : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c)⟩)

/-- The frame: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Spec.lean ====
/-
  The common specification of the two programs, on the flattened arrays.

  Both programs flatten the batch of adjacency matrices adj : [8, 2048, 2048] to one matrix A : [16384, 2048] (row
  2048·b + i of A is row i of adj[b]), multiply it by the embedding matrix W : [2048, 512], and give the product
  [16384, 512] the shape [8, 2048, 512] back. The two flattenings are the same operation in both programs, so what
  has to agree is the flat product: entry (r, d) is the sum over all 2048 vertices k of A[r, k] · W[k, d], on the
  extended reals.

  One program takes the whole sum at once; the other cuts the 2048 vertices into four consecutive runs of 512 and
  adds the four partial sums up from zero. Addition on the extended reals is commutative and associative (also at
  the infinities), so regrouping the sum changes nothing: `sum_runs`.
-/
import Idealize.ShloMosaic.Lib.ValueIdx
import Idealize.ShloMosaic.PureOps.Ideal

noncomputable section

open scoped BigOperators

namespace Cert.Spec

open Idealize.ShloMosaic Idealize.ShloMosaic.ValueIdx

/-- The flat product: entry (r, d) is the sum over the vertices k of A[r, k] · W[k, d]. -/
def flatProd (A : FVec Ideal ⟨2, ![16384, 2048]⟩ .f32) (W : FVec Ideal ⟨2, ![2048, 512]⟩ .f32) :
    FVec Ideal ⟨2, ![16384, 512]⟩ .f32 :=
  fun j => ∑ k : Fin 2048, A (ix2 (j 0) k) * W (ix2 k (j 1))

/-- Vertex 512·b + r, the r-th vertex of the b-th run. -/
def vtx (b : Fin 4) (r : Fin 512) : Fin 2048 := ⟨512 * b.val + r.val, by have := b.isLt; have := r.isLt; omega⟩

/-- Run and offset of a vertex, as a bijection. -/
def runEquiv : Fin 4 × Fin 512 ≃ Fin 2048 where
  toFun p := vtx p.1 p.2
  invFun k := (⟨k.val / 512, by have := k.isLt; omega⟩, ⟨k.val % 512, Nat.mod_lt _ (by decide)⟩)
  left_inv p := by
    obtain ⟨b, r⟩ := p
    have hb := b.isLt; have hr := r.isLt
    apply Prod.ext <;> apply Fin.ext <;> simp only [vtx] <;> omega
  right_inv k := by
    apply Fin.ext; simp only [vtx]; have := k.isLt; omega

/-- A sum over the 2048 vertices is the sum over the four runs of the sums over each run's 512 vertices. -/
theorem sum_runs {M : Type*} [AddCommMonoid M] (f : Fin 2048 → M) :
    ∑ k : Fin 2048, f k = ∑ b : Fin 4, ∑ r : Fin 512, f (vtx b r) := by
  rw [← Equiv.sum_comp runEquiv f, Fintype.sum_prod_type]
  rfl

/-- The batch of matrices and its flattening have as many entries; so have the flat product and the result. -/
theorem casts_in : (⟨3, ![8, 2048, 2048]⟩ : Shape).ShapeCasts ⟨2, ![16384, 2048]⟩ := by decide
theorem casts_out : (⟨2, ![16384, 512]⟩ : Shape).ShapeCasts ⟨3, ![8, 2048, 512]⟩ := by decide

/-- The result both programs compute: flatten the batch, multiply, give the product the batch shape back. -/
def result (adj : FVec Ideal ⟨3, ![8, 2048, 2048]⟩ .f32) (W : FVec Ideal ⟨2, ![2048, 512]⟩ .f32) :
    FVec Ideal ⟨3, ![8, 2048, 512]⟩ .f32 :=
  shapeCast _ (flatProd (shapeCast _ adj casts_in) W) casts_out

end Cert.Spec

end
-- ==== Proof.KernelIdealValue.lean ====
/-
  What the kernel's region leaves in the product's buffer, at the ideal values: the flat product.

  At the ideal values a change of float format is the identity and the matrix unit's product into a zero accumulator
  is the plain sum over the contracted coordinate. So each of the body's two stores holds, at row p and column q of
  its half of the output block, the sum over the 2048 vertices k of (the block's row p of A)[k] · W[k, q].

  Point t hands the body rows 2048·t … 2048·t + 1023 of A (first window: block index 2t of 1024-row blocks) and rows
  2048·t + 1024 … 2048·t + 2047 (second window: block index 2t + 1), and writes the output block back at rows
  2048·t … 2048·t + 2047 of the product. Row r of the output block, in its upper or its lower half, is therefore row
  2048·t + r of A times W: block t of the flat product. The eight blocks tile the product's 16384 rows (row r lies in
  block r / 2048), so after the eight write-backs the buffer holds the flat product.
-/
import proofs.«169213_g2000205745379852_pallasbulk_1175_13_alg».proof.Proof.KernelIdealRun
import proofs.«169213_g2000205745379852_pallasbulk_1175_13_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-- The product's dimension numbers: rows by the contracted axis, times the contracted axis by columns. -/
abbrev DD : DotDims S1024x2048 S2048x512 S1024x512 := dot_S1024x2048_S2048x512_S1024x512_1_0_0_1_n_n

/-- A block of 1024 rows of A times W, both passed through the narrower float format, into a zero accumulator: at
    (p, q), the sum over the vertices k of the block's entry (p, k) times W's entry (k, q). -/
theorem rowsW_apply (xA : FVec Ideal S1024x2048 .f32) (xW : FVec Ideal S2048x512 .f32) (p : Fin 1024) (q : Fin 512) :
    matmul DD none (truncf .bf16 (shapeCast S1024x2048 xA shapeCasts_S1024x2048_S1024x2048) bitsLt_bf16_f32)
        (truncf .bf16 xW bitsLt_bf16_f32) (constant (F := Ideal) S1024x512 .f32 0x00000000#32) (ix2 p q)
      = ∑ k : Fin 2048, xA (ix2 p k) * xW (ix2 k q) := by
  show FloatOps.matmul _ none _ _ _ (ix2 p q) = _
  rw [Ideal.matmul_constant_zero_apply, ← Equiv.sum_comp (contrEquiv1 DD 2048 rfl rfl).symm]
  refine Finset.sum_congr rfl fun k _ => ?_
  have ck := contrEquiv1_symm_val DD 2048 rfl rfl k
  have l2 : DD.lhsIdx (ix2 p q) ((contrEquiv1 DD 2048 rfl rfl).symm k) = ix2 p k := by
    funext ax; apply Fin.ext
    match ax with
    | ⟨0, _⟩ => simp [DotDims.lhsIdx, DD, dot_S1024x2048_S2048x512_S1024x512_1_0_0_1_n_n]; rfl
    | ⟨1, _⟩ => simp [DotDims.lhsIdx, DD, dot_S1024x2048_S2048x512_S1024x512_1_0_0_1_n_n]; exact ck
  have r2 : DD.rhsIdx (ix2 p q) ((contrEquiv1 DD 2048 rfl rfl).symm k) = ix2 k q := by
    funext ax; apply Fin.ext
    match ax with
    | ⟨0, _⟩ => simp [DotDims.rhsIdx, DD, dot_S1024x2048_S2048x512_S1024x512_1_0_0_1_n_n]; exact ck
    | ⟨1, _⟩ => simp [DotDims.rhsIdx, DD, dot_S1024x2048_S2048x512_S1024x512_1_0_0_1_n_n]; rfl
  rw [l2, r2, truncf_apply, truncf_apply, shapeCast_self]

/-- Both of the body's payloads are that sum. -/
theorem pay2_apply (xW : Vec Ideal S2048x512 .f32) (xA : Vec Ideal S1024x2048 .f32) (p : Fin 1024) (q : Fin 512) :
    k0_pay2 xW xA (ix2 p q) = ∑ k : Fin 2048, xA (ix2 p k) * xW (ix2 k q) :=
  rowsW_apply xA xW p q
theorem pay3_apply (xW : Vec Ideal S2048x512 .f32) (xA : Vec Ideal S1024x2048 .f32) (p : Fin 1024) (q : Fin 512) :
    k0_pay3 xW xA (ix2 p q) = ∑ k : Fin 2048, xA (ix2 p k) * xW (ix2 k q) :=
  rowsW_apply xA xW p q

/-! ## The output block as one function of the input blocks -/

theorem hz : (![0, 0] : Fin 2 → Nat) = fun _ => 0 := funext fun a => by fin_cases a <;> rfl

/-- The output block after the body is any function `G` of the block's index that is, on the upper half, the first
    block of rows times W and, on the lower half, the second block of rows times W. -/
theorem out3_eq_of (x0 x1 : Vec Ideal S1024x2048 .f32) (x2 : Vec Ideal S2048x512 .f32) (G : Vec Ideal S2048x512 .f32)
    (hTop : ∀ (p : Fin 1024) (q : Fin 512), ∑ k : Fin 2048, x0 (ix2 p k) * x2 (ix2 k q) = G (rTop.emb (ix2 p q)))
    (hBot : ∀ (p : Fin 1024) (q : Fin 512), ∑ k : Fin 2048, x1 (ix2 p k) * x2 (ix2 k q) = G (rBot.emb (ix2 p q))) :
    out3 x0 x1 x2 = G := by
  funext y
  unfold out3
  refine View.canon_apply_of_pieces G _ ?_ y (cover3 _ _ y)
  intro pc hpc x
  simp only [List.mem_cons, List.mem_nil_iff, or_false] at hpc
  rcases hpc with rfl | rfl
  · obtain ⟨p, q, rfl⟩ : ∃ (p : Fin 1024) (q : Fin 512), x = ix2 p q := ⟨x 0, x 1, eq_ix2 x⟩
    refine (pay3_apply _ _ p q).trans ?_
    rw [View.ld_unit_zero hz, View.ld_unit_zero hz]
    exact hBot p q
  · obtain ⟨p, q, rfl⟩ : ∃ (p : Fin 1024) (q : Fin 512), x = ix2 p q := ⟨x 0, x 1, eq_ix2 x⟩
    refine (pay2_apply _ _ p q).trans ?_
    rw [View.ld_unit_zero hz, View.ld_unit_zero hz]
    exact hTop p q

/-! ## From the blocks to the array -/

section Blocks
variable (V : (c : Dev nD) → (b : Ref sig .tc) → Buf (Elt Ideal) ((c : Thread nD τ).loc b))

/-- The index maps, decided once over the grid: point t reads blocks 2t and 2t + 1 of A's 1024-row blocks, the one
    block of W, and writes block t of the product's 2048-row blocks. -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the flat product of the arrays as the region finds them. -/
theorem flushed_eq (c : Dev nD) (t : Fin cfg0.N) :
    (dat V c).flushed 3 t
      = ((cfg0.win 3).blk t).view.read (Elt Ideal) (Cert.Spec.flatProd (V c main_v0) (V c main_arg1)) := by
  show (cfg0.win 3).cut (grid0.coords t) ((dat V c).after 3 t) = _
  rw [after_3]
  obtain ⟨e00, e01, e10, e11, e20, e21, e30, e31⟩ := idx_facts t
  have ht : t.val < 8 := lt_of_lt_of_eq t.isLt N_0
  let A : FVec Ideal S16384x2048 .f32 := V c main_v0
  let W : FVec Ideal S2048x512 .f32 := V c main_arg1
  refine out3_eq_of _ _ _ _ (fun p q => ?_) (fun p q => ?_)
  · show ∑ k : Fin 2048, A (((cfg0.win 0).blk t).view.emb (ix2 p k)) * W (((cfg0.win 2).blk t).view.emb (ix2 k q))
      = ∑ k : Fin 2048, A (ix2 ((((cfg0.win 3).blk t).view.emb (rTop.emb (ix2 p q))) 0) k)
          * W (ix2 k ((((cfg0.win 3).blk t).view.emb (rTop.emb (ix2 p q))) 1))
    refine Finset.sum_congr rfl fun k _ => ?_
    have h0 : ((cfg0.win 0).blk t).view.emb (ix2 p k) = ix2 ((((cfg0.win 3).blk t).view.emb (rTop.emb (ix2 p q))) 0) k := by
      funext a; apply Fin.ext
      match a with
      | ⟨0, _⟩ => show win0_0.index t (0 : Fin 2) * 1024 + 1 * p.val = win0_3.index t (0 : Fin 2) * 2048 + 1 * (0 + 1 * p.val); omega
      | ⟨1, _⟩ => show win0_0.index t (1 : Fin 2) * 2048 + 1 * k.val = k.val; omega
    have h2 : ((cfg0.win 2).blk t).view.emb (ix2 k q) = ix2 k ((((cfg0.win 3).blk t).view.emb (rTop.emb (ix2 p q))) 1) := by
      funext a; apply Fin.ext
      match a with
      | ⟨0, _⟩ => show win0_2.index t (0 : Fin 2) * 2048 + 1 * k.val = k.val; omega
      | ⟨1, _⟩ => show win0_2.index t (1 : Fin 2) * 512 + 1 * q.val = win0_3.index t (1 : Fin 2) * 512 + 1 * (0 + 1 * q.val); omega
    exact congrArg₂ (fun a b : EReal => a * b) (congrArg A h0) (congrArg W h2)
  · show ∑ k : Fin 2048, A (((cfg0.win 1).blk t).view.emb (ix2 p k)) * W (((cfg0.win 2).blk t).view.emb (ix2 k q))
      = ∑ k : Fin 2048, A (ix2 ((((cfg0.win 3).blk t).view.emb (rBot.emb (ix2 p q))) 0) k)
          * W (ix2 k ((((cfg0.win 3).blk t).view.emb (rBot.emb (ix2 p q))) 1))
    refine Finset.sum_congr rfl fun k _ => ?_
    have h1 : ((cfg0.win 1).blk t).view.emb (ix2 p k) = ix2 ((((cfg0.win 3).blk t).view.emb (rBot.emb (ix2 p q))) 0) k := by
      funext a; apply Fin.ext
      match a with
      | ⟨0, _⟩ => show win0_1.index t (0 : Fin 2) * 1024 + 1 * p.val = win0_3.index t (0 : Fin 2) * 2048 + 1 * (1024 + 1 * p.val); omega
      | ⟨1, _⟩ => show win0_1.index t (1 : Fin 2) * 2048 + 1 * k.val = k.val; omega
    have h2 : ((cfg0.win 2).blk t).view.emb (ix2 k q) = ix2 k ((((cfg0.win 3).blk t).view.emb (rBot.emb (ix2 p q))) 1) := by
      funext a; apply Fin.ext
      match a with
      | ⟨0, _⟩ => show win0_2.index t (0 : Fin 2) * 2048 + 1 * k.val = k.val; omega
      | ⟨1, _⟩ => show win0_2.index t (1 : Fin 2) * 512 + 1 * q.val = win0_3.index t (1 : Fin 2) * 512 + 1 * (0 + 1 * q.val); omega
    exact congrArg₂ (fun a b : EReal => a * b) (congrArg A h1) (congrArg W h2)

/-- An index of the product is in point `t`'s block iff each coordinate is in the block's range on its axis. -/
theorem mem_blk (t : Fin cfg0.N) (i : S16384x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v1).slice (win0_3.rect t)).set ↔ _
  rw [View.set_slice_whole, Rect.mem_set_unit]
  exact Iff.rfl

/-- Every index of the product is in some point's block: row r in block r / 2048. -/
theorem cover (i : S16384x512.Idx) : ∃ t : Fin cfg0.N, (cfg0.win 3).flush t = true ∧ i ∈ ((cfg0.win 3).blk t).view.set := by
  have hi0 : (i 0).val < 16384 := (i 0).isLt
  have hi1 : (i 1).val < 512 := (i 1).isLt
  let t : Fin cfg0.N := ⟨(i 0).val / 2048, by rw [show cfg0.N = 8 from N_0]; omega⟩
  obtain ⟨e00, e01, e10, e11, e20, e21, e30, e31⟩ := idx_facts t
  have e30' : win0_3.index t (0 : Fin 2) = (i 0).val / 2048 := e30
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- The product's buffer after the eight write-backs: the flat product of the arrays as the region finds them. -/
theorem final3 (c : Dev nD) : (dat V c).arrAt 3 cfg0.N = Cert.Spec.flatProd (V c main_v0) (V c main_arg1) :=
  (dat V c).arrAt_eq_of_cover 3 _ (fun t _ => flushed_eq V c t) cover

end Blocks

/-! ## The program's result -/

section Result
variable (m : (ℓ : Loc nD τ sig) → Buf (Elt Ideal) ℓ) (ρ : Dev nD → PrngReg)

/-- After the flattening A's buffer holds the flattened batch, and W's is as launched. -/
theorem V1_v0 (c : Dev nD) :
    V1 m ρ c main_v0 = shapeCast S16384x2048 (m ((c : Thread nD τ).loc main_arg0)) shapeCasts_S8x2048x2048_S16384x2048 := by
  show StableHlo.after (hostOps0 (F := Ideal)) (W0 m ρ c) (Proc.devRef .tc main_v0) = _
  simp only [hostOps0, StableHlo.after_cons, StableHlo.after_nil]
  rw [StableHlo.reshape_result]
  rfl
theorem V1_arg1 (c : Dev nD) : V1 m ρ c main_arg1 = m ((c : Thread nD τ).loc main_arg1) :=
  W1_of_ne m ρ c main_arg1 (by decide)

/-- The result's buffer at the end: the flat product of the flattened batch and W, given the batch shape back. -/
theorem result_eq (c : Dev nD) :
    W3 m ρ c (Proc.devRef .tc main_v2)
      = Cert.Spec.result (m ((c : Thread nD τ).loc main_arg0)) (m ((c : Thread nD τ).loc main_arg1)) := by
  show StableHlo.after (hostOps1 (F := Ideal)) (W2 m ρ c) (Proc.devRef .tc main_v2) = _
  simp only [hostOps1, StableHlo.after_cons, StableHlo.after_nil]
  rw [StableHlo.reshape_result, W2_v1, final3, V1_v0, V1_arg1]
  rfl

/-- At the ideal values: the program runs, its result is `Cert.Spec.result` of its arguments, and the arguments end
    unchanged. -/
theorem run : θ_run (defs (F := Ideal)) (onTc (τ := τ) (main (F := Ideal))) ⟨m, fun _ => 0, ρ⟩ (fun r => ∀ c : Dev nD,
      r.2.mem ((c.tc : Thread nD τ).loc main_v2)
        = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (run_main m ρ)

end Result

end Cert.KernelIdeal.HandValue

end
-- ==== Proof.RefPieces.lean ====
/-
  What each case of the body leaves behind, as values (any float instance).

  The body keeps a 512 x 512 accumulator in a scratch buffer. At every grid point it adds the product of the point's two
  input blocks to the accumulator; at the first point of a run of four (k = 0) it first stores the zero block, and at the
  last (k = 3) it also copies the accumulator into the output block. So, writing
  step acc a w = acc + a · w for the one payload the body stores:
    first point:   the scratch ends at  step zero a w,
    other points:  the scratch ends at  step acc a w  of what the point before left,
    last point:    the output block ends at the same  step acc a w.
-/
import proofs.«169213_g2000205745379852_pallasbulk_1175_13_alg».proof.Proof.Gen.ReferenceIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]

theorem hz : (![0, 0] : Fin 2 → Nat) = fun _ => 0 := funext fun a => by fin_cases a <;> rfl

/-- The zero block the first point of a run stores. -/
abbrev zero : Vec F S512x512 .f32 := k0_pay1 (F := F)

/-- The one step of the accumulation: the accumulator plus the product of the two input blocks. -/
abbrev step (acc a w : Vec F S512x512 .f32) : Vec F S512x512 .f32 := k0_pay2 acc a w

/-- First point of a run: the scratch ends at the step from the zero block (the zero block is stored, read back, and
    the step stored over it). -/
theorem sout_A (c : Dev nD) (i : grid0.Coords) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (hc0 : cond0_0 i) (hc1 : ¬cond0_1 i)
    (x0 x1 : Vec F S512x512 .f32) :
    sout0_A_0 c i a3 h3 a4 h4 a5 h5 a6 h6 hc0 hc1 x0 x1 = step zero x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x512) hz, View.readCov_unit_zero (S := S512x512) _ hz]
  simp only [View.readAt_eq_ld, h3.read_unread, h4.read_unread, View.ld_unit_zero (S := S512x512) hz]

/-- A middle point: the scratch ends at the step from what the point before left. -/
theorem sout_B (c : Dev nD) (i : grid0.Coords) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (hc0 : ¬cond0_0 i) (hc1 : ¬cond0_1 i)
    (x0 x1 xs0 : Vec F S512x512 .f32) :
    sout0_B_0 c i a3 h3 a4 h4 a5 h5 a6 h6 hc0 hc1 x0 x1 xs0 = step xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S512x512) hz]

/-- The last point of a run: the scratch ends at the step from what the point before left, -/
theorem sout_C (c : Dev nD) (i : grid0.Coords) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (hc0 : ¬cond0_0 i) (hc1 : cond0_1 i)
    (x0 x1 xs0 : Vec F S512x512 .f32) :
    sout0_C_0 c i a3 h3 a4 h4 a5 h5 a6 h6 hc0 hc1 x0 x1 xs0 = step xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S512x512) hz]

/-- and the output block ends at the same value: the scratch just stored, read back and copied. -/
theorem out_C (c : Dev nD) (i : grid0.Coords) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (hc0 : ¬cond0_0 i) (hc1 : cond0_1 i)
    (x0 x1 xs0 : Vec F S512x512 .f32) :
    out0_C_2 c i a3 h3 a4 h4 a5 h5 a6 h6 hc0 hc1 x0 x1 xs0 = step xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S512x512) _ hz]
  simp only [View.readAt_eq_ld, h3.read_unread, h4.read_unread, h6.read_unread, View.ld_unit_zero (S := S512x512) hz]

end Cert.ReferenceIdeal.RefValue

end
-- ==== Proof.RefChain.lean ====
/-
  The accumulation along a run, point by point (any float instance).

  What the scratch accumulator holds after a point, in terms of what it held after the point before: at the first point
  of a run of four the step from the zero block; at every other point the step from the predecessor's contents. At the
  last point of a run the output block is left at the same value as the scratch.
-/
import proofs.«169213_g2000205745379852_pallasbulk_1175_13_alg».proof.Proof.RefPieces

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]
variable (m : (ℓ : Loc nD τ sig) → Buf (Elt F) ℓ)

/-- The scratch contents after a point depend on the point's position only. -/
theorem snd_congr (c : Dev nD) (n n' : ℕ) (h : n = n') (hn : n < cfg0.N) (hn' : n' < cfg0.N) :
    (outsAt0 m c n hn).2 = (outsAt0 m c n' hn').2 := by
  subst h; rfl

/-- First point of a run: the scratch holds the step from the zero block. -/
theorem acc_A (c : Dev nD) (t : Fin cfg0.N) (h0 : t.val % 4 = 0) (h1 : ¬t.val % 4 = 3) :
    (outsAt0 m c t.val t.isLt).2 = step zero (iblk m c 0 t) (iblk m c 1 t) := by
  rw [outsAt0_A m c t h0 h1]
  dsimp only
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- A middle point: the scratch holds the step from what the point before (tp) left. -/
theorem acc_B (c : Dev nD) (t tp : Fin cfg0.N) (h0 : ¬t.val % 4 = 0) (h1 : ¬t.val % 4 = 3) (htp : t.val - 1 = tp.val) :
    (outsAt0 m c t.val t.isLt).2 = step (outsAt0 m c tp.val tp.isLt).2 (iblk m c 0 t) (iblk m c 1 t) := by
  rw [outsAt0_B m c t h0 h1]
  dsimp only
  rw [sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2,
    snd_congr m c (t.val - 1) tp.val htp _ tp.isLt]

/-- The last point of a run: the output block holds the step from what the point before (tp) left. -/
theorem out_C_at (c : Dev nD) (t tp : Fin cfg0.N) (h0 : ¬t.val % 4 = 0) (h1 : t.val % 4 = 3) (htp : t.val - 1 = tp.val) :
    (outsAt0 m c t.val t.isLt).1 = step (outsAt0 m c tp.val tp.isLt).2 (iblk m c 0 t) (iblk m c 1 t) := by
  rw [outsAt0_C m c t h0 h1]
  dsimp only
  rw [out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2,
    snd_congr m c (t.val - 1) tp.val htp _ tp.isLt]

end Cert.ReferenceIdeal.RefValue

end
-- ==== Proof.RefStep.lean ====
/-
  The body's payloads read at one entry, on the extended reals.

  The zero block reads 0 everywhere. The step  acc + a · w  of 512 x 512 blocks reads, at entry (p, q), the accumulator's
  entry plus the sum over the 512 inner positions kk of a[p, kk] · w[kk, q]: the product contracts axis 1 of a with
  axis 0 of w, and the casts around it are casts to the same shape.
-/
import proofs.«169213_g2000205745379852_pallasbulk_1175_13_alg».proof.Proof.Gen.ReferenceIdeal.Skeleton
import Idealize.ShloMosaic.Lib.ValueIdx
import Idealize.ShloMosaic.PureOps.Ideal.Laws
import Idealize.ShloMosaic.Lib.Pipeline.Value

set_option maxRecDepth 16384

noncomputable section

open Idealize.ShloMosaic Idealize.ShloMosaic.TcCoe Idealize.SL.Sem
open Idealize.ShloMosaic.Pipeline (Dat)

open scoped BigOperators

namespace Cert.ReferenceIdeal.RefValue

open Cert.ReferenceIdeal Cert.ReferenceIdeal.Gen Idealize.ShloMosaic.ValueIdx

/-- The product's dimension numbers. -/
abbrev DD : DotDims S512x512 S512x512 S512x512 := dot_S512x512_S512x512_S512x512_1_0_0_1_n_n

/-- The contraction index with inner position kk. -/
abbrev cix (kk : Fin 512) : DD.contr.Idx := (contrEquiv1 DD 512 rfl rfl).symm kk

/-- The left operand is read at (p, kk), -/
theorem lhs_at (p q kk : Fin 512) : DD.lhsIdx (ix2 p q) (cix kk) = ix2 p kk := by
  funext d
  apply Fin.ext
  match d with
  | ⟨0, _⟩ => rfl
  | ⟨1, _⟩ => exact (DD.lhsIdx_val_of_single (cl := (1 : Fin 2)) rfl (ix2 p q) (cix kk)).trans (contrEquiv1_symm_val DD 512 rfl rfl kk)

/-- the right operand at (kk, q). -/
theorem rhs_at (p q kk : Fin 512) : DD.rhsIdx (ix2 p q) (cix kk) = ix2 kk q := by
  funext d
  apply Fin.ext
  match d with
  | ⟨0, _⟩ => exact (DD.rhsIdx_val_of_single (cr := (0 : Fin 2)) rfl (ix2 p q) (cix kk)).trans (contrEquiv1_symm_val DD 512 rfl rfl kk)
  | ⟨1, _⟩ => rfl

/-- The zero block reads 0. -/
theorem zero_apply (j : S512x512.Idx) : k0_pay1 (F := Ideal) j = 0 := by
  unfold k0_pay1
  simp only [shapeCast_self]
  exact Ideal.ofBits_zero_f32

/-- The step at (p, q): the accumulator there plus the sum over the inner positions of the operands' products. -/
theorem step_apply (acc a w : FVec Ideal S512x512 .f32) (p q : Fin 512) :
    k0_pay2 (F := Ideal) acc a w (ix2 p q) = acc (ix2 p q) + ∑ kk : Fin 512, a (ix2 p kk) * w (ix2 kk q) := by
  unfold k0_pay2
  simp only [shapeCast_self]
  refine (addf_apply _ _ _).trans ?_
  refine congrArg (acc (ix2 p q) + ·) ?_
  refine (Ideal.matmul_constant_zero_apply DD none a w (ix2 p q)).trans ?_
  refine (Equiv.sum_comp (contrEquiv1 DD 512 rfl rfl).symm _).symm.trans ?_
  refine Finset.sum_congr rfl fun kk _ => ?_
  show a (DD.lhsIdx (ix2 p q) (cix kk)) * w (DD.rhsIdx (ix2 p q) (cix kk)) = _
  rw [lhs_at, rhs_at]

end Cert.ReferenceIdeal.RefValue

end
-- ==== Proof.RefBlocks.lean ====
/-
  Where the windows' blocks sit in their arrays (any float instance).

  At grid point t = 4 i + k (row block i of 32, run k of 4) the left window reads block (i, k) of the flattened
  matrix, the right window block (k, 0) of the second operand, and the output window is block (i, 0) of the product.
  Entry (p, kk) of the left block is therefore entry (512 i + p, 512 k + kk) of the matrix, entry (kk, q) of the right
  block is entry (512 k + kk, q) of the second operand. The flattened matrix itself is the first argument reshaped:
  the one host operation before the region.
-/
import proofs.«169213_g2000205745379852_pallasbulk_1175_13_alg».proof.Proof.Gen.ReferenceIdeal.Frame.Runs
import proofs.«169213_g2000205745379852_pallasbulk_1175_13_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Idealize.ShloMosaic.ValueIdx

variable {F : FTy → Type} [FloatOps F]
variable (m : (ℓ : Loc nD τ sig) → Buf (Elt F) ℓ)

/-- The block indices in closed form, decided over the grid's 128 points. -/
theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- Row 512 i + p of the flattened matrix: row p of row block i. -/
def rowOf (i : Fin 32) (p : Fin 512) : Fin 16384 := ⟨512 * i.val + p.val, by have := i.isLt; have := p.isLt; omega⟩

/-- At a point of row block i and run b, entry (p, kk) of the left block is entry (512 i + p, 512 b + kk) of the
    flattened matrix. -/
theorem iblk0_at (c : Dev nD) (t : Fin cfg0.N) (i : Fin 32) (b : Fin 4) (hi : t.val / 4 = i.val) (hb : t.val % 4 = b.val)
    (p kk : Fin 512) :
    iblk m c 0 t (ix2 p kk) = V m c main_v0 (ix2 (rowOf i p) (Cert.Spec.vtx b kk)) := by
  unfold iblk
  rw [View.read_apply]
  show V m c main_v0 _ = V m c main_v0 _
  refine congrArg (V m c main_v0) ?_
  funext a
  apply Fin.ext
  match a with
  | ⟨0, _⟩ =>
    show win0_0.index t 0 * 512 + 1 * p.val = 512 * i.val + p.val
    rw [(idx0 t).1, hi]; omega
  | ⟨1, _⟩ =>
    show win0_0.index t 1 * 512 + 1 * kk.val = 512 * b.val + kk.val
    rw [(idx0 t).2, hb]; omega

/-- At a point of run b, entry (kk, q) of the right block is entry (512 b + kk, q) of the second operand. -/
theorem iblk1_at (c : Dev nD) (t : Fin cfg0.N) (b : Fin 4) (hb : t.val % 4 = b.val) (kk q : Fin 512) :
    iblk m c 1 t (ix2 kk q) = V m c main_arg1 (ix2 (Cert.Spec.vtx b kk) q) := by
  unfold iblk
  rw [View.read_apply]
  show V m c main_arg1 _ = V m c main_arg1 _
  refine congrArg (V m c main_arg1) ?_
  funext a
  apply Fin.ext
  match a with
  | ⟨0, _⟩ =>
    show win0_1.index t 0 * 512 + 1 * kk.val = 512 * b.val + kk.val
    rw [(idx1 t).1, hb]; omega
  | ⟨1, _⟩ =>
    show win0_1.index t 1 * 512 + 1 * q.val = q.val
    rw [(idx1 t).2]; omega

/-- The flattened matrix the region finds is the first argument reshaped. -/
theorem V_main_v0 (c : Dev nD) :
    V m c main_v0 = shapeCast S16384x2048 (m ((c : Thread nD τ).loc main_arg0)) shapeCasts_S8x2048x2048_S16384x2048 := by
  show StableHlo.after hostOps0 (fun b => m (c, b)) (Proc.devRef .tc main_v0) = _
  after_results
  rfl

end Cert.ReferenceIdeal.RefValue

end
-- ==== Proof.RefAcc.lean ====
/-
  A run of four points, summed (extended reals).

  At the last point t of a run (t = 4 i + 3) the output block holds
      (((0 + P₀) + P₁) + P₂) + P₃,
  where P_b at (p, q) is the sum over the 512 inner positions kk of  A[512 i + p, 512 b + kk] · W[512 b + kk, q]:
  the zero block at the run's first point, then one step per point, each step adding the product of the point's two
  blocks, and each block read where its window says. The four partial sums are the four runs of the whole sum over the
  2048 inner positions, so the block's entry is the flat product's entry (512 i + p, q).
-/
import proofs.«169213_g2000205745379852_pallasbulk_1175_13_alg».proof.Proof.RefChain
import proofs.«169213_g2000205745379852_pallasbulk_1175_13_alg».proof.Proof.RefStep
import proofs.«169213_g2000205745379852_pallasbulk_1175_13_alg».proof.Proof.RefBlocks

set_option maxRecDepth 16384

noncomputable section

open Idealize.ShloMosaic Idealize.ShloMosaic.TcCoe Idealize.SL.Sem
open Idealize.ShloMosaic.Pipeline (Dat)

open scoped BigOperators

namespace Cert.ReferenceIdeal.RefValue

open Cert.ReferenceIdeal Cert.ReferenceIdeal.Gen Idealize.ShloMosaic.ValueIdx

variable (m : (ℓ : Loc nD τ sig) → Buf (Elt Ideal) ℓ)

/-- The flattened matrix as the region finds it. -/
def Amat (c : Dev nD) : FVec Ideal ⟨2, ![16384, 2048]⟩ .f32 := V m c main_v0
/-- The second operand as the region finds it. -/
def Wmat (c : Dev nD) : FVec Ideal ⟨2, ![2048, 512]⟩ .f32 := V m c main_arg1

/-- Run b's part of entry (512 i + p, q) of the product. -/
def part (c : Dev nD) (i : Fin 32) (b : Fin 4) (p q : Fin 512) : EReal :=
  ∑ kk : Fin 512, Amat m c (ix2 (rowOf i p) (Cert.Spec.vtx b kk)) * Wmat m c (ix2 (Cert.Spec.vtx b kk) q)

/-- The zero block reads 0. -/
theorem zero_at (j : S512x512.Idx) : (zero : Vec Ideal S512x512 .f32) j = 0 := zero_apply j

/-- One step at a point of row block i and run b adds that run's part. -/
theorem step_at (c : Dev nD) (X : FVec Ideal S512x512 .f32) (t : Fin cfg0.N) (i : Fin 32) (b : Fin 4)
    (hi : t.val / 4 = i.val) (hb : t.val % 4 = b.val) (p q : Fin 512) :
    step X (iblk m c 0 t) (iblk m c 1 t) (ix2 p q) = X (ix2 p q) + part m c i b p q := by
  refine (step_apply X (iblk m c 0 t) (iblk m c 1 t) p q).trans ?_
  refine congrArg (X (ix2 p q) + ·) ?_
  unfold part
  refine Finset.sum_congr rfl fun kk _ => ?_
  rw [iblk0_at m c t i b hi hb p kk, iblk1_at m c t b hb kk q]
  rfl

/-- The point k places before t. -/
abbrev back (t : Fin cfg0.N) (k : ℕ) : Fin cfg0.N := ⟨t.val - k, Nat.lt_of_le_of_lt (Nat.sub_le _ _) t.isLt⟩

/-- The output block at the last point of row block i's run is the flat product's block. -/
theorem out_at (c : Dev nD) (t : Fin cfg0.N) (i : Fin 32) (hi : t.val / 4 = i.val) (h3 : t.val % 4 = 3) (p q : Fin 512) :
    (outsAt0 m c t.val t.isLt).1 (ix2 p q) = Cert.Spec.flatProd (Amat m c) (Wmat m c) (ix2 (rowOf i p) q) := by
  have hN : t.val < 128 := lt_of_lt_of_eq t.isLt (show cfg0.N = 128 from N_0)
  have e3 := out_C_at m c t (back t 1) (by omega) h3 rfl
  have e2 := acc_B m c (back t 1) (back t 2) (by show ¬(t.val - 1) % 4 = 0; omega) (by show ¬(t.val - 1) % 4 = 3; omega)
    (by show t.val - 1 - 1 = t.val - 2; omega)
  have e1 := acc_B m c (back t 2) (back t 3) (by show ¬(t.val - 2) % 4 = 0; omega) (by show ¬(t.val - 2) % 4 = 3; omega)
    (by show t.val - 2 - 1 = t.val - 3; omega)
  have e0 := acc_A m c (back t 3) (by show (t.val - 3) % 4 = 0; omega) (by show ¬(t.val - 3) % 4 = 3; omega)
  rw [e3, step_at m c _ t i 3 hi h3 p q,
    e2, step_at m c _ (back t 1) i 2 (by show (t.val - 1) / 4 = i.val; omega) (by show (t.val - 1) % 4 = 2; omega) p q,
    e1, step_at m c _ (back t 2) i 1 (by show (t.val - 2) / 4 = i.val; omega) (by show (t.val - 2) % 4 = 1; omega) p q,
    e0, step_at m c _ (back t 3) i 0 (by show (t.val - 3) / 4 = i.val; omega) (by show (t.val - 3) % 4 = 0; omega) p q,
    zero_at, zero_add]
  show _ = ∑ k : Fin 2048, Amat m c (ix2 (rowOf i p) k) * Wmat m c (ix2 k q)
  rw [Cert.Spec.sum_runs, Fin.sum_univ_four]
  rfl

end Cert.ReferenceIdeal.RefValue

end
-- ==== Proof.RefFinal.lean ====
/-
  The product array after the region (extended reals).

  The output window is written back at the last point of each run of four, t = 4 i + 3, and what is written there is
  block (i, 0) of the flat product of the flattened matrix and the second operand (the run's four partial sums). The
  32 blocks tile the 16384 x 512 product array: row r lies in the block written at point 4 (r / 512) + 3. So after the
  region the array holds the flat product.
-/
import proofs.«169213_g2000205745379852_pallasbulk_1175_13_alg».proof.Proof.RefAcc
import Idealize.ShloMosaic.Lib.Pipeline.Value

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Idealize.ShloMosaic.ValueIdx

variable (m : (ℓ : Loc nD τ sig) → Buf (Elt Ideal) ℓ)

/-- The flat product, as contents of the product array. -/
def Gout (c : Dev nD) : Buf (Elt Ideal) ((cfg0.win 2).arr.view.loc (c.tc : Thread nD τ)) :=
  Cert.Spec.flatProd (Amat m c) (Wmat m c)

/-- What a write-back writes is its block of the flat product. -/
theorem flushed_eq (c : Dev nD) (t : Fin cfg0.N) (hf : (cfg0.win 2).flush t = true) :
    (dats m 0 c).flushed 2 t = ((cfg0.win 2).blk t).view.read (Elt Ideal) (Gout m c) := by
  have h3 : t.val % 4 = 3 := (flush0_2 t).mp hf
  have hN : t.val < 128 := lt_of_lt_of_eq t.isLt (show cfg0.N = 128 from N_0)
  funext y
  obtain ⟨p, q, rfl⟩ : ∃ p q : Fin 512, y = ix2 p q := ⟨y 0, y 1, eq_ix2 (n0 := 512) (n1 := 512) y⟩
  show (outsAt0 m c t.val t.isLt).1 (ix2 p q) = _
  rw [out_at m c t ⟨t.val / 4, by omega⟩ rfl h3 p q, View.read_apply]
  show Cert.Spec.flatProd (Amat m c) (Wmat m c) _ = Cert.Spec.flatProd (Amat m c) (Wmat m c) _
  refine congrArg (Cert.Spec.flatProd (Amat m c) (Wmat m c)) ?_
  funext a
  apply Fin.ext
  match a with
  | ⟨0, _⟩ =>
    show 512 * (t.val / 4) + p.val = win0_2.index t 0 * 512 + 1 * p.val
    rw [(idx2 t).1]; omega
  | ⟨1, _⟩ =>
    show q.val = win0_2.index t 1 * 512 + 1 * q.val
    rw [(idx2 t).2]; omega

/-- Every entry of the product array lies in a block that is written back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 16384 := (i 0).isLt
  have h1 : (i 1 : Nat) < 512 := (i 1).isLt
  have hlt : 4 * ((i 0 : Nat) / 512) + 3 < cfg0.N := by rw [show cfg0.N = 128 from N_0]; omega
  refine ⟨⟨4 * ((i 0 : Nat) / 512) + 3, hlt⟩, (flush0_2 _).mpr (by show (4 * ((i 0 : Nat) / 512) + 3) % 4 = 3; omega), ?_⟩
  show i ∈ ((View.whole main_v1).slice (win0_2.rect ⟨4 * ((i 0 : Nat) / 512) + 3, hlt⟩)).set
  rw [View.set_slice_whole, Rect.mem_set_unit]
  intro a
  match a with
  | ⟨0, _⟩ =>
    show win0_2.index ⟨4 * ((i 0 : Nat) / 512) + 3, hlt⟩ 0 * 512 ≤ (i 0 : Nat)
      ∧ (i 0 : Nat) < win0_2.index ⟨4 * ((i 0 : Nat) / 512) + 3, hlt⟩ 0 * 512 + 512
    rw [(idx2 ⟨4 * ((i 0 : Nat) / 512) + 3, hlt⟩).1]
    show (4 * ((i 0 : Nat) / 512) + 3) / 4 * 512 ≤ (i 0 : Nat) ∧ (i 0 : Nat) < (4 * ((i 0 : Nat) / 512) + 3) / 4 * 512 + 512
    omega
  | ⟨1, _⟩ =>
    show win0_2.index ⟨4 * ((i 0 : Nat) / 512) + 3, hlt⟩ 1 * 512 ≤ (i 1 : Nat)
      ∧ (i 1 : Nat) < win0_2.index ⟨4 * ((i 0 : Nat) / 512) + 3, hlt⟩ 1 * 512 + 512
    rw [(idx2 ⟨4 * ((i 0 : Nat) / 512) + 3, hlt⟩).2]
    omega

/-- After the region the product array holds the flat product. -/
theorem final (c : Dev nD) : (dats m 0 c).arrAt 2 cfg0.N = Gout m c :=
  (dats m 0 c).arrAt_eq_of_cover 2 (Gout m c) (flushed_eq m c) (cover c)

end Cert.ReferenceIdeal.RefValue

end
-- ==== Proof.RefRun.lean ====
/-
  The whole program's result (extended reals).

  @main reshapes the batch of matrices to the flattened matrix, runs the region — after which the product array holds
  the flat product of the flattened matrix and the second operand —, and gives the product the batch shape back. So the
  result is the common specification's: flatten, multiply, reshape. The two arguments are left as they were.
-/
import proofs.«169213_g2000205745379852_pallasbulk_1175_13_alg».proof.Proof.RefFinal
import Idealize.ShloMosaic.Lib.Pipeline.FrameSuffix
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Idealize.ShloMosaic.ValueIdx

variable (m : (ℓ : Loc nD τ sig) → Buf (Elt Ideal) ℓ)

/-- The flat product the region leaves is the specification's, of the launch contents. -/
theorem Gout_eq (c : Dev nD) :
    Gout m c = Cert.Spec.flatProd (shapeCast _ (m ((c.tc : Thread nD τ).loc main_arg0)) Cert.Spec.casts_in)
      (m ((c.tc : Thread nD τ).loc main_arg1)) := by
  unfold Gout Amat Wmat
  rw [V_main_v0 m c, V_main_arg1 m c]

/-- The one host operation after the region reshapes the product array. -/
theorem tail_v2 (c : Dev nD) :
    Pipeline.afterTail₀ cfgs (dats m) 0 (V0 m) [hostOps1] c main_v2
      = shapeCast S8x2048x512 (Gout m c) shapeCasts_S16384x512_S8x2048x512 := by
  unfold Pipeline.afterTail₀
  show StableHlo.after hostOps1 _ (Proc.devRef .tc main_v2) = _
  after_results
  exact congrArg (fun x => shapeCast S8x2048x512 x shapeCasts_S16384x512_S8x2048x512)
    ((Pipeline.withArrays_arr spec0 launch0.win.arr_inj c _ _ 2).trans (final m c))

/-- Reshaped, it is the specification's result. -/
theorem result_eq (c : Dev nD) :
    shapeCast S8x2048x512 (Gout m c) shapeCasts_S16384x512_S8x2048x512
      = Cert.Spec.result (m ((c.tc : Thread nD τ).loc main_arg0)) (m ((c.tc : Thread nD τ).loc main_arg1)) := by
  unfold Cert.Spec.result
  rw [Gout_eq m c]

/-- Every run of the program ends with the specification's result in the result buffer and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
        = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans
        ((tail_v2 m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.ReferenceIdeal.RefValue

end
-- ==== Proof.lean ====
/-
  The kernel and its reference compute the same batched product, as extended reals.

  Both programs flatten the batch of adjacency matrices adj : [8, 2048, 2048] to one matrix A : [16384, 2048], multiply
  it by the embedding matrix W : [2048, 512] inside one kernel region, and reshape the product [16384, 512] to
  [8, 2048, 512]. The kernel takes 2048 rows of A per grid point, as two blocks of 1024 rows handed to it through two
  windows on the one array, and multiplies each block by the whole of W: every entry of the product is one sum over
  all 2048 vertices. The reference takes 512 rows per output block and walks the 2048 vertices in four runs of 512,
  adding each run's partial product to an accumulator that starts at zero. At the ideal values a change of float
  format is the identity and every sum is exact, so the two results differ only in how one sum of 2048 terms is
  grouped, and addition on the extended reals is commutative and associative, infinities included: the results are
  equal, with no use of the finiteness of the inputs (`Cert.Spec.sum_runs`).

  The three frames: the reference's is generated whole. The kernel's two (at the word level and at the ideal values)
  are one argument written for any float instance: the program as a flattening, the region, a reshape; the region's
  body run once symbolically; the buffer that two windows share held by halves during the region (`Cert.Kernel.Hand`,
  `Cert.KernelIdeal.Hand`). The idealization rewrote no operation, so there is nothing to preserve.
-/
import proofs.«169213_g2000205745379852_pallasbulk_1175_13_alg».proof.Defs
import proofs.«169213_g2000205745379852_pallasbulk_1175_13_alg».proof.Proof.Gen.Kernel
import proofs.«169213_g2000205745379852_pallasbulk_1175_13_alg».proof.Proof.Gen.KernelIdeal
import proofs.«169213_g2000205745379852_pallasbulk_1175_13_alg».proof.Proof.Gen.ReferenceIdeal
import proofs.«169213_g2000205745379852_pallasbulk_1175_13_alg».proof.Proof.Gen.ReferenceIdeal.Frame
import proofs.«169213_g2000205745379852_pallasbulk_1175_13_alg».proof.Proof.Gen.Pre_finite_inputs
import proofs.«169213_g2000205745379852_pallasbulk_1175_13_alg».proof.Proof.KernelRun
import proofs.«169213_g2000205745379852_pallasbulk_1175_13_alg».proof.Proof.KernelIdealValue
import proofs.«169213_g2000205745379852_pallasbulk_1175_13_alg».proof.Proof.RefRun
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- So does the reference. -/
theorem frame_ri : Cert.frame_ReferenceIdeal := fun m ρ _ => Cert.ReferenceIdeal.Gen.frame m ρ

/-- The idealization rewrote nothing. -/
theorem preserves : Cert.preserves_Kernel_KernelIdeal := trivial

/-- At the ideal values, from memories that agree on the arguments, both programs end with the result buffer at the
    same function of the arguments: the flat product of the flattened batch and W, in the batch shape. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
